-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x1024 : Shape := ⟨2, ![8, 1024]⟩
abbrev S128x1024 : Shape := ⟨2, ![128, 1024]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x128 .f32) (main_arg8 : FVec F S1 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x256 .f32) (main_arg6 : FVec F S128 .f32) (main_arg7 : FVec F S1x128 .f32) (main_arg8 : FVec F S1 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8x256x128 .f32) (main_arg1 : FVec F S8x256x128 .f32) (main_arg2 : FVec F S8x1024 .f32) (main_arg3 : FVec F S128x1024 .f32) (main_arg4 : FVec F S128 .f32) (main_arg5 : FVec F S128x256 .f32) (main_arg6 : FVec F S128 .f32) (main_arg7 : FVec F S1x128 .f32) (main_arg8 : FVec F S1 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_v13 main_v16
-- ==== Kernel.lean ====
abbrev S8x256x128 : Shape := ⟨3, ![8, 256, 128]⟩
abbrev S8x1024 : Shape := ⟨2, ![8, 1024]⟩
abbrev S128x1024 : Shape := ⟨2, ![128, 1024]⟩
abbrev S128 : Shape := ⟨1, ![128]⟩
abbrev S128x256 : Shape := ⟨2, ![128, 256]⟩
abbrev S1x128 : Shape := ⟨2, ![1, 128]⟩
abbrev S1 : Shape := ⟨1, ![1]⟩
abbrev S8x128 : Shape := ⟨2, ![8, 128]⟩
abbrev S8x1x128 : Shape := ⟨3, ![8, 1, 128]⟩
abbrev S128x128 : Shape := ⟨2, ![128, 128]⟩
abbrev S1x1 : Shape := ⟨2, ![1, 1]⟩
abbrev S8x256x256 : Shape := ⟨3, ![8, 256, 256]⟩
abbrev S1x128x128 : Shape := ⟨3, ![1, 128, 128]⟩
abbrev S16x128 : Shape := ⟨2, ![16, 128]⟩
abbrev S16x1x128 : Shape := ⟨3, ![16, 1, 128]⟩
abbrev S16x128x128 : Shape := ⟨3, ![16, 128, 128]⟩
abbrev S1x1x128 : Shape := ⟨3, ![1, 1, 128]⟩
abbrev S1x16x128 : Shape := ⟨3, ![1, 16, 128]⟩

abbrev nBuf : Space → Nat
  | .hbm => 22
  | .vmem => 13
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x1024, .f32⟩
  | .hbm, ⟨3, _⟩ => ⟨S128x1024, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S8x128, .f32⟩
  | .hbm, ⟨10, _⟩ => ⟨S1x128, .f32⟩
  | .hbm, ⟨11, _⟩ => ⟨S8x128, .f32⟩
  | .hbm, ⟨12, _⟩ => ⟨S8x128, .f32⟩
  | .hbm, ⟨13, _⟩ => ⟨S8x128, .f32⟩
  | .hbm, ⟨14, _⟩ => ⟨S8x1x128, .f32⟩
  | .hbm, ⟨15, _⟩ => ⟨S8x256x128, .f32⟩
  | .hbm, ⟨16, _⟩ => ⟨S8x256x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S1x1, .f32⟩
  | .hbm, ⟨21, _⟩ => ⟨S8x256x256, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S1x128x128, .f32⟩
  | .local _ .vmem, ⟨10, _⟩ => ⟨S1x128x128, .f32⟩
  | .local _ .vmem, ⟨11, _⟩ => ⟨S128x128, .f32⟩
  | .local _ .vmem, ⟨12, _⟩ => ⟨S128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![8, 2, 2], ![false, false, false]⟩

def k0_mult1 : BitVec 32 :=
  let c0_i32 : BitVec 32 := 0#32
  let c16_i32 : BitVec 32 := 16#32
  let v29 : BitVec 32 := Scalar.muli c0_i32 c16_i32
  v29
def k0_off1 (c0_i32 : BitVec 32) : Fin 2 → Nat :=
  let c16_i32 : BitVec 32 := 16#32
  let v29 : BitVec 32 := Scalar.muli c0_i32 c16_i32
  let v30 : BitVec 32 := v29
  let v31 : Index := Scalar.indexCast v30
  let c0_22 : Index := 0#32
  ![v31.toNat, 0]
def k0_off2 (c0_i32 : BitVec 32) : Fin 3 → Nat :=
  let c0_25 : Index := 0#32
  let c16_i32 : BitVec 32 := 16#32
  let v29 : BitVec 32 := Scalar.muli c0_i32 c16_i32
  let v30 : BitVec 32 := v29
  let v49 : Index := Scalar.indexCast v30
  let c0_26 : Index := 0#32
  ![0, v49.toNat, 0]
def k0_mult2 : BitVec 32 :=
  let c1_i32 : BitVec 32 := 1#32
  let c16_i32_27 : BitVec 32 := 16#32
  let v53 : BitVec 32 := Scalar.muli c1_i32 c16_i32_27
  v53
def k0_mult3 : BitVec 32 :=
  let c2_i32 : BitVec 32 := 2#32
  let c16_i32_33 : BitVec 32 := 16#32
  let v77 : BitVec 32 := Scalar.muli c2_i32 c16_i32_33
  v77
def k0_mult4 : BitVec 32 :=
  let c3_i32 : BitVec 32 := 3#32
  let c16_i32_39 : BitVec 32 := 16#32
  let v101 : BitVec 32 := Scalar.muli c3_i32 c16_i32_39
  v101
def k0_mult5 : BitVec 32 :=
  let c4_i32 : BitVec 32 := 4#32
  let c16_i32_45 : BitVec 32 := 16#32
  let v125 : BitVec 32 := Scalar.muli c4_i32 c16_i32_45
  v125
def k0_mult6 : BitVec 32 :=
  let c5_i32 : BitVec 32 := 5#32
  let c16_i32_51 : BitVec 32 := 16#32
  let v149 : BitVec 32 := Scalar.muli c5_i32 c16_i32_51
  v149
def k0_mult7 : BitVec 32 :=
  let c6_i32 : BitVec 32 := 6#32
  let c16_i32_57 : BitVec 32 := 16#32
  let v173 : BitVec 32 := Scalar.muli c6_i32 c16_i32_57
  v173
def k0_mult8 : BitVec 32 :=
  let c7_i32 : BitVec 32 := 7#32
  let c16_i32_63 : BitVec 32 := 16#32
  let v197 : BitVec 32 := Scalar.muli c7_i32 c16_i32_63
  v197
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x128_S8x1x128_0_2 : S8x128.BroadcastsInDim S8x1x128 (![0, 2] : Fin 2 → Fin S8x1x128.rank)
  bcast_S8x1x128_S8x256x128_0_1_2 : S8x1x128.BroadcastsInDim S8x256x128 (![0, 1, 2] : Fin 3 → Fin S8x256x128.rank)
  slices_S128x256_S128x128_0_0 : S128x256.Slices ![0, 0] S128x128
  slices_S128x256_S128x128_0_128 : S128x256.Slices ![0, 128] S128x128
  shapeCasts_S128_S1x128 : S128.ShapeCasts S1x128
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S16x128 : 0 < S16x128.numel
  shapeCasts_S16x128_S16x1x128 : S16x128.ShapeCasts S16x1x128
  shapeCasts_S128x128_S1x128x128 : S128x128.ShapeCasts S1x128x128
  broadcasts_S16x1x128_S16x128x128 : S16x1x128.Broadcasts S16x128x128
  broadcasts_S1x128x128_S16x128x128 : S1x128x128.Broadcasts S16x128x128
  shapeCasts_S128_S1x1x128 : S128.ShapeCasts S1x1x128
  broadcasts_S1x1x128_S16x128x128 : S1x1x128.Broadcasts S16x128x128
  reduces_S16x128x128_S16x128 : S16x128x128.Reduces [2] S16x128
  h_S1x16x128 : 0 < S1x16x128.numel
  shapeCasts_S1x16x128_S16x128 : S1x16x128.ShapeCasts S16x128
  shapeCasts_S16x128_S1x16x128 : S16x128.ShapeCasts S1x16x128
  dot_S8x1024_S128x1024_S8x128_1_1_0_0_n_n_wf : DotDims.WF S8x1024 S128x1024 S8x128 [1] [1] [0] [0] [] []
  dot_S128x128_S128x128_S128x128_1_0_0_1_n_n_wf : DotDims.WF S128x128 S128x128 S128x128 [1] [0] [0] [1] [] []
  hrank0 : 0 < grid0.rank
  k0_mult1_dvd : 16 ∣ k0_mult1.toNat
  k0_off1_inb : ∀ (r : Fin 8), ∀ a, (k0_off1 (BitVec.ofNat 32 r.val)) a + S16x128.size a ≤ S128x128.size a
  k0_off2_inb : ∀ (r : Fin 8), ∀ a, (k0_off2 (BitVec.ofNat 32 r.val)) a + S1x16x128.size a ≤ S1x128x128.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x256x128.size a
  hwx0_0 : ∀ i : grid0.Coords, EltTy.bits .f32 = 32 ∨ (Rect.block (s := S8x256x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x256x128.size a
  hwx0_1 : ∀ i : grid0.Coords, EltTy.bits .f32 = 32 ∨ (Rect.block (s := S8x256x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S8x256x256.size a
  hwx0_7 : ∀ i : grid0.Coords, EltTy.bits .f32 = 32 ∨ (Rect.block (s := S8x256x256) S1x128x128.size (cc0_transform_7 i) (hinb0_7 i)).WholeWords (EltTy.packing .f32)

variable [Facts₀]

def dot_S8x1024_S128x1024_S8x128_1_1_0_0_n_n : DotDims S8x1024 S128x1024 S8x128 where
  lhsContracting := [1]
  rhsContracting := [1]
  lhsNonContracting := [0]
  rhsNonContracting := [0]
  lhsBatch := []
  rhsBatch := []
  wf := dot_S8x1024_S128x1024_S8x128_1_1_0_0_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v7) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x1024 : Shape := ⟨2, ![8, 1024]⟩
abbrev S128x1024 : Shape := ⟨2, ![128, 1024]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1024x128 : Shape := ⟨2, ![1024, 128]⟩
abbrev S8x128 : Shape := ⟨2, ![8, 128]⟩
abbrev S8x1x128 : Shape := ⟨3, ![8, 1, 128]⟩
abbrev S128x128 : Shape := ⟨2, ![128, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩
abbrev S8x256x256x1 : Shape := ⟨4, ![8, 256, 256, 1]⟩
abbrev S1x1x1x1 : Shape := ⟨4, ![1, 1, 1, 1]⟩
abbrev S8x256x256 : Shape := ⟨3, ![8, 256, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x1024, .f32⟩
  | .hbm, ⟨3, _⟩ => ⟨S128x1024, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S1024x128, .f32⟩
  | .hbm, ⟨10, _⟩ => ⟨S8x128, .f32⟩
  | .hbm, ⟨11, _⟩ => ⟨S1x128, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S8x1x128, .f32⟩
  | .hbm, ⟨16, _⟩ => ⟨S8x256x128, .f32⟩
  | .hbm, ⟨17, _⟩ => ⟨S8x256x128, .f32⟩
  | .hbm, ⟨18, _⟩ => ⟨S128x128, .f32⟩
  | .hbm, ⟨19, _⟩ => ⟨S128x128, .f32⟩
  | .hbm, ⟨20, _⟩ => ⟨S8x256x128, .f32⟩
  | .hbm, ⟨21, _⟩ => ⟨S8x256x128, .f32⟩
  | .hbm, ⟨22, _⟩ => ⟨S8x256x1x128, .f32⟩
  | .hbm, ⟨23, _⟩ => ⟨S8x1x256x128, .f32⟩
  | .hbm, ⟨24, _⟩ => ⟨S8x256x256x128, .f32⟩
  | .hbm, ⟨25, _⟩ => ⟨S8x256x256x128, .f32⟩
  | .hbm, ⟨26, _⟩ => ⟨S8x256x256x128, .f32⟩
  | .hbm, ⟨27, _⟩ => ⟨S1x1x1x128, .f32⟩
  | .hbm, ⟨28, _⟩ => ⟨S8x256x256x128, .f32⟩
  | .hbm, ⟨29, _⟩ => ⟨S8x256x256x128, .f32⟩
  | .hbm, ⟨30, _⟩ => ⟨S_, .f32⟩
  | .hbm, ⟨31, _⟩ => ⟨S8x256x256x128, .f32⟩
  | .hbm, ⟨32, _⟩ => ⟨S8x256x256x128, .f32⟩
  | .hbm, ⟨33, _⟩ => ⟨S8x256x256x1, .f32⟩
  | .hbm, ⟨34, _⟩ => ⟨S1x1x1x1, .f32⟩
  | .hbm, ⟨35, _⟩ => ⟨S8x256x256x1, .f32⟩
  | .hbm, ⟨36, _⟩ => ⟨S8x256x256x1, .f32⟩
  | .hbm, ⟨37, _⟩ => ⟨S8x256x256, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x128_S8x1x128_0_2 : S8x128.BroadcastsInDim S8x1x128 (![0, 2] : Fin 2 → Fin S8x1x128.rank)
  bcast_S8x1x128_S8x256x128_0_1_2 : S8x1x128.BroadcastsInDim S8x256x128 (![0, 1, 2] : Fin 3 → Fin S8x256x128.rank)
  slices_S128x256_S128x128_0_0 : S128x256.Slices ![0, 0] S128x128
  slices_S128x256_S128x128_0_128 : S128x256.Slices ![0, 128] S128x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S1_S1x1x1x1_3 : S1.BroadcastsInDim S1x1x1x1 (![3] : Fin 1 → Fin S1x1x1x1.rank)
  bcast_S1x1x1x1_S8x256x256x1_0_1_2_3 : S1x1x1x1.BroadcastsInDim S8x256x256x1 (![0, 1, 2, 3] : Fin 4 → Fin S8x256x256x1.rank)
  shapeCasts_S8x256x256x1_S8x256x256 : S8x256x256x1.ShapeCasts S8x256x256
  dot_S8x1024_S1024x128_S8x128_1_0_0_1_n_n_wf : DotDims.WF S8x1024 S1024x128 S8x128 [1] [0] [0] [1] [] []
  dot_S8x256x128_S128x128_S8x256x128_2_1_01_0_n_n_wf : DotDims.WF S8x256x128 S128x128 S8x256x128 [2] [1] [0, 1] [0] [] []
  dot_S8x256x256x128_S1x128_S8x256x256x1_3_1_012_0_n_n_wf : DotDims.WF S8x256x256x128 S1x128 S8x256x256x1 [3] [1] [0, 1, 2] [0] [] []

variable [Facts₀]

def dot_S8x1024_S1024x128_S8x128_1_0_0_1_n_n : DotDims S8x1024 S1024x128 S8x128 where
  lhsContracting := [1]
  rhsContracting := [0]
  lhsNonContracting := [0]
  rhsNonContracting := [1]
  lhsBatch := []
  rhsBatch := []
  wf := dot_S8x1024_S1024x128_S8x128_1_0_0_1_n_n_wf
def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def dot_S8x256x256x128_S1x128_S8x256x256x1_3_1_012_0_n_n : DotDims S8x256x256x128 S1x128 S8x256x256x1 where
  lhsContracting := [3]
  rhsContracting := [1]
  lhsNonContracting := [0, 1, 2]
  rhsNonContracting := [0]
  lhsBatch := []
  rhsBatch := []
  wf := dot_S8x256x256x128_S1x128_S8x256x256x1_3_1_012_0_n_n_wf

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.PairChunk.lean ====
/-
  The kernel body's arithmetic, read at an entry.

  The body first stores the two projections `px = Xc · Wxᵀ` and `py = Y · Wyᵀ` (128×128 each, bf16 operands, an f32
  zero accumulator: at the ideal instance plain 128-term sums) in its two scratch buffers, then walks the 128 rows of
  `px` sixteen at a time. For a group of sixteen rows `pxc` it forms, for every row `r` of the group, every row `q`
  of `py` and every feature `e`,

      hidden(r,q,e)   = max((pxc(r,e) + py(q,e)) + lin_b(e), 0),
      weighted(r,q,e) = hidden(r,q,e) · out_w(e),
      summed(r,q)     = (Σ_e weighted(r,q,e)) + out_b,

  and stores `summed` as rows 16j … 16j+15 of the output block. The eight groups are the same computation; the
  printed body only cuts it at different places, so each stored value is `rows (summed (weighted (hidden …)))`
  by unfolding.
-/
import proofs.«163208_j1503238554110_2_alg».proof.Proof.Gen.KernelIdeal.Skeleton
import proofs.«163208_j1503238554110_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.PairKernel

open Idealize.ShloMosaic Idealize.ShloMosaic.ValueIdx Cert.KernelIdeal Cert.KernelIdeal.Gen

/-! ## Layout operations of the body, read at an entry -/

variable {α : Type}

/-- A group of sixteen rows, given a unit middle axis and repeated over 128 columns: entry `(r, q, e)` is `(r, e)`. -/
theorem groupBcast_apply (v : S16x128.Idx → α) (r : Fin 16) (q e : Fin 128) :
    broadcastTo S16x128x128 (shapeCast S16x1x128 v shapeCasts_S16x128_S16x1x128) broadcasts_S16x1x128_S16x128x128 (ix3 r q e)
      = v (ix2 r e) := by
  refine (broadcastTo_apply _ broadcasts_S16x1x128_S16x128x128 (ix3 r q e) (ix3 r (0 : Fin 1) e) ?_).trans ?_
  · intro a
    match a with
    | ⟨0, _⟩ => show r.val = if (16 : Nat) = 1 then 0 else r.val; rw [if_neg (by decide)]
    | ⟨1, _⟩ => show 0 = if (1 : Nat) = 1 then 0 else q.val; rw [if_pos rfl]
    | ⟨2, _⟩ => show e.val = if (128 : Nat) = 1 then 0 else e.val; rw [if_neg (by decide)]
  · refine shapeCast_apply v shapeCasts_S16x128_S16x1x128 (ix3 r (0 : Fin 1) e) (ix2 r e) ?_
    rw [Shape.rowMajor_val_two, Shape.rowMajor_val_three]
    show r.val * 128 + e.val = (r.val * 1 + 0) * 128 + e.val
    omega

/-- The 128 rows of the second projection, given a unit leading axis and repeated over the sixteen rows of a
    group: entry `(r, q, e)` is `(q, e)`. -/
theorem fullBcast_apply (v : S128x128.Idx → α) (r : Fin 16) (q e : Fin 128) :
    broadcastTo S16x128x128 (shapeCast S1x128x128 v shapeCasts_S128x128_S1x128x128) broadcasts_S1x128x128_S16x128x128 (ix3 r q e)
      = v (ix2 q e) := by
  refine (broadcastTo_apply _ broadcasts_S1x128x128_S16x128x128 (ix3 r q e) (ix3 (0 : Fin 1) q e) ?_).trans ?_
  · intro a
    match a with
    | ⟨0, _⟩ => show 0 = if (1 : Nat) = 1 then 0 else r.val; rw [if_pos rfl]
    | ⟨1, _⟩ => show q.val = if (128 : Nat) = 1 then 0 else q.val; rw [if_neg (by decide)]
    | ⟨2, _⟩ => show e.val = if (128 : Nat) = 1 then 0 else e.val; rw [if_neg (by decide)]
  · refine shapeCast_apply v shapeCasts_S128x128_S1x128x128 (ix3 (0 : Fin 1) q e) (ix2 q e) ?_
    rw [Shape.rowMajor_val_two, Shape.rowMajor_val_three]
    show q.val * 128 + e.val = (0 * 128 + q.val) * 128 + e.val
    omega

/-- A vector over the 128 features repeated over every pair `(r, q)`: entry `(r, q, e)` is entry `e`. -/
theorem featBcast_apply (v : S128.Idx → α) (r : Fin 16) (q e : Fin 128) :
    broadcastTo S16x128x128 (shapeCast S1x1x128 v shapeCasts_S128_S1x1x128) broadcasts_S1x1x128_S16x128x128 (ix3 r q e)
      = v (ix1 e) := by
  refine (broadcastTo_apply _ broadcasts_S1x1x128_S16x128x128 (ix3 r q e) (ix3 (0 : Fin 1) (0 : Fin 1) e) ?_).trans ?_
  · intro a
    match a with
    | ⟨0, _⟩ => show 0 = if (1 : Nat) = 1 then 0 else r.val; rw [if_pos rfl]
    | ⟨1, _⟩ => show 0 = if (1 : Nat) = 1 then 0 else q.val; rw [if_pos rfl]
    | ⟨2, _⟩ => show e.val = if (128 : Nat) = 1 then 0 else e.val; rw [if_neg (by decide)]
  · refine shapeCast_apply v shapeCasts_S128_S1x1x128 (ix3 (0 : Fin 1) (0 : Fin 1) e) (ix1 e) ?_
    rw [Shape.rowMajor_val_one, Shape.rowMajor_val_three]
    show e.val = (0 * 1 + 0) * 128 + e.val
    omega

/-! ## The three stages of a group of sixteen rows -/

/-- `max((pxc(r,e) + py(q,e)) + lin_b(e), 0)` as the body writes it. -/
def hidden (linb : FVec Ideal S128 .f32) (py : Vec Ideal S128x128 .f32) (pxc : Vec Ideal S16x128 .f32) :
    FVec Ideal S16x128x128 .f32 :=
  maximumf
    (addf
      (addf (broadcastTo S16x128x128 (shapeCast S16x1x128 pxc shapeCasts_S16x128_S16x1x128) broadcasts_S16x1x128_S16x128x128)
        (broadcastTo S16x128x128 (shapeCast S1x128x128 py shapeCasts_S128x128_S1x128x128) broadcasts_S1x128x128_S16x128x128))
      (broadcastTo S16x128x128 (shapeCast S1x1x128 linb shapeCasts_S128_S1x1x128) broadcasts_S1x1x128_S16x128x128))
    (broadcast S16x128x128 (Scalar.ofBits (F := Ideal) .f32 0x00000000#32))

/-- The rectified values weighted by `out_w` along the feature axis. -/
def weighted (outw : FVec Ideal S128 .f32) (u : FVec Ideal S16x128x128 .f32) : FVec Ideal S16x128x128 .f32 :=
  mulf u (broadcastTo S16x128x128 (shapeCast S1x1x128 outw shapeCasts_S128_S1x1x128) broadcasts_S1x1x128_S16x128x128)

/-- The sum over the feature axis, from zero, plus `out_b`. -/
def summed (outb : Ideal .f32) (w : FVec Ideal S16x128x128 .f32) : FVec Ideal S16x128 .f32 :=
  addf (multiReduction .add [2] S16x128 w 0x00000000#32 reduces_S16x128x128_S16x128 (.inl rfl) rfl)
    (broadcast S16x128 outb)

/-- The sixteen result rows with the unit leading axis of the output block. -/
def rows (v : FVec Ideal S16x128 .f32) : FVec Ideal S1x16x128 .f32 :=
  shapeCast S1x16x128 v shapeCasts_S16x128_S1x16x128

theorem zero_word : Scalar.ofBits (F := Ideal) .f32 0x00000000#32 = (0 : EReal) := Ideal.ofBits_zero_f32

theorem hidden_apply (linb : FVec Ideal S128 .f32) (py : Vec Ideal S128x128 .f32) (pxc : Vec Ideal S16x128 .f32)
    (r : Fin 16) (q e : Fin 128) :
    hidden linb py pxc (ix3 r q e) = max ((pxc (ix2 r e) + py (ix2 q e)) + linb (ix1 e)) 0 := by
  unfold hidden
  rw [maximumf_apply, addf_apply, addf_apply, broadcast_apply, groupBcast_apply, fullBcast_apply, featBcast_apply,
    zero_word]

theorem weighted_apply (outw : FVec Ideal S128 .f32) (u : FVec Ideal S16x128x128 .f32) (r : Fin 16) (q e : Fin 128) :
    weighted outw u (ix3 r q e) = u (ix3 r q e) * outw (ix1 e) := by
  unfold weighted
  rw [mulf_apply, featBcast_apply]

/-- The feature axis put back into a pair `(r, q)`. -/
theorem lift_feature (r : Fin 16) (q : Fin 128) (e : Fin (S16x128x128.size 2)) :
    reduces_S16x128x128_S16x128.lift (ix2 r q) e = ix3 r q (⟨e.val, e.isLt⟩ : Fin 128) := by
  funext c; apply Fin.ext
  fin_cases c <;> rfl

theorem summed_apply (outb : Ideal .f32) (w : FVec Ideal S16x128x128 .f32) (r : Fin 16) (q : Fin 128) :
    summed outb w (ix2 r q) = (∑ e : Fin 128, w (ix3 r q e)) + outb := by
  unfold summed
  rw [addf_apply, broadcast_apply]
  refine congrArg (· + outb) ?_
  refine (Ideal.multiReduction_add_single w 0x00000000#32 reduces_S16x128x128_S16x128 (.inl rfl) rfl (ix2 r q)).trans ?_
  exact Finset.sum_congr rfl fun e _ => congrArg w (lift_feature r q e)

theorem rows_apply (v : FVec Ideal S16x128 .f32) (r : Fin 16) (q : Fin 128) :
    rows v (ix3 (0 : Fin 1) r q) = v (ix2 r q) := by
  unfold rows
  refine shapeCast_apply v shapeCasts_S16x128_S1x16x128 (ix3 (0 : Fin 1) r q) (ix2 r q) ?_
  rw [Shape.rowMajor_val_two, Shape.rowMajor_val_three]
  show r.val * 128 + q.val = (0 * 16 + r.val) * 128 + q.val
  omega

/-- A group's stored rows at an entry: the pair's score with the group's rows of `px`. -/
theorem group_apply (linb outw : FVec Ideal S128 .f32) (outb : Ideal .f32) (py : Vec Ideal S128x128 .f32)
    (pxc : Vec Ideal S16x128 .f32) (r : Fin 16) (q : Fin 128) :
    rows (summed outb (weighted outw (hidden linb py pxc))) (ix3 (0 : Fin 1) r q)
      = (∑ e : Fin 128, max ((pxc (ix2 r e) + py (ix2 q e)) + linb (ix1 e)) 0 * outw (ix1 e)) + outb := by
  rw [rows_apply, summed_apply]
  refine congrArg (· + outb) (Finset.sum_congr rfl fun e _ => ?_)
  rw [weighted_apply, hidden_apply]

/-! ## The printed payloads are these stages -/

theorem pay7_eq (a b : FVec Ideal S128 .f32) (c : Ideal .f32) (d : Vec Ideal S128x128 .f32) (x : Vec Ideal S16x128 .f32) :
    k0_pay7 a b c d x = rows (summed c (weighted b (hidden a d x))) := rfl
theorem pay10_eq (a b : FVec Ideal S128 .f32) (c : Ideal .f32) (d : Vec Ideal S128x128 .f32) (x : Vec Ideal S16x128 .f32) :
    k0_pay10 a b c d x = rows (summed c (weighted b (hidden a d x))) := rfl
theorem pay13_eq (a b : FVec Ideal S128 .f32) (c : Ideal .f32) (d : Vec Ideal S128x128 .f32) (x : Vec Ideal S16x128 .f32) :
    k0_pay13 a b c d x = rows (summed c (weighted b (hidden a d x))) := rfl
theorem pay16_eq (a b : FVec Ideal S128 .f32) (c : Ideal .f32) (d : Vec Ideal S128x128 .f32) (x : Vec Ideal S16x128 .f32) :
    k0_pay16 a b c d x = rows (summed c (weighted b (hidden a d x))) := rfl
theorem pay9_8_eq (a b : FVec Ideal S128 .f32) (c : Ideal .f32) (d : Vec Ideal S128x128 .f32) (x : Vec Ideal S16x128 .f32) :
    k0_pay9 (k0_pay8 a b c d x) = rows (summed c (weighted b (hidden a d x))) := rfl
theorem pay12_11_eq (a b : FVec Ideal S128 .f32) (c : Ideal .f32) (d : Vec Ideal S128x128 .f32) (x : Vec Ideal S16x128 .f32) :
    k0_pay12 (k0_pay11 a b c d x) = rows (summed c (weighted b (hidden a d x))) := rfl
theorem pay15_14_eq (a b : FVec Ideal S128 .f32) (c : Ideal .f32) (d : Vec Ideal S128x128 .f32) (x : Vec Ideal S16x128 .f32) :
    k0_pay15 c (k0_pay14 a b d x) = rows (summed c (weighted b (hidden a d x))) := rfl
theorem pay1_17_eq (a b : FVec Ideal S128 .f32) (c : Ideal .f32) (d : Vec Ideal S128x128 .f32) (x : Vec Ideal S16x128 .f32) :
    k0_pay1 b c (k0_pay17 a d x) = rows (summed c (weighted b (hidden a d x))) := rfl

/-! ## The loaded parameters and the two projections -/

/-- The bias row [1,128] flattened to a vector: entry `e` is entry `(0, e)`. -/
theorem pay4_apply (x : Vec Ideal S1x128 .f32) (e : Fin 128) : k0_pay4 x (ix1 e) = x (ix2 (0 : Fin 1) e) := by
  unfold k0_pay4
  refine shapeCast_apply x shapeCasts_S1x128_S128 (ix1 e) (ix2 (0 : Fin 1) e) ?_
  rw [Shape.rowMajor_val_two, Shape.rowMajor_val_one]
  show 0 * 128 + e.val = e.val
  omega

theorem pay5_apply (x : Vec Ideal S1x128 .f32) (e : Fin 128) : k0_pay5 x (ix1 e) = x (ix2 (0 : Fin 1) e) :=
  pay4_apply x e

/-- The scalar bias is the one entry of its [1,1] block. -/
theorem pay6_eq (x : Vec Ideal S1x1 .f32) : k0_pay6 x = x (ix2 (0 : Fin 1) (0 : Fin 1)) := by
  unfold k0_pay6 extractAt
  refine congrArg x ?_
  funext a; apply Fin.ext
  fin_cases a <;> rfl

/-- A projection at `(n, e)`: the block's row `n` against row `e` of the weight matrix, a 128-term sum (the
    operands' change of format is the identity at the ideal instance, the weight's transpose swaps its axes, the
    product is into a zero accumulator). -/
theorem pay2_apply (z : Vec Ideal S1x128x128 .f32) (w : Vec Ideal S128x128 .f32) (n e : Fin 128) :
    k0_pay2 z w (ix2 n e) = ∑ k : Fin 128, z (ix3 (0 : Fin 1) n k) * w (ix2 e k) := by
  unfold k0_pay2
  rw [shapeCast_self]
  refine (Cert.LibMatmulNN.matmul_zero_apply' dot_S128x128_S128x128_S128x128_1_0_0_1_n_n rfl rfl rfl rfl rfl rfl none _ _ n e).trans ?_
  refine Finset.sum_congr rfl fun k _ => ?_
  congr 1
  · refine shapeCast_apply z shapeCasts_S1x128x128_S128x128 (ix2 n k) (ix3 (0 : Fin 1) n k) ?_
    rw [Shape.rowMajor_val_two, Shape.rowMajor_val_three]
    show (0 * 128 + n.val) * 128 + k.val = n.val * 128 + k.val
    omega
  · refine (transpose_apply [1, 0] _ transposes_S128x128_p1_0_S128x128 (ix2 k e) (ix2 e k) ?_).trans ?_
    · intro b
      match b with
      | ⟨0, _⟩ => rfl
      | ⟨1, _⟩ => rfl
    · rw [truncf_apply, shapeCast_self]

theorem pay3_eq (z : Vec Ideal S1x128x128 .f32) (w : Vec Ideal S128x128 .f32) : k0_pay3 z w = k0_pay2 z w := rfl

end Cert.PairKernel

end
-- ==== Proof.PairBlock.lean ====
/-
  What the body leaves in the output block: one function of the seven input blocks.

  The body writes the 128×128 output block in eight stores of sixteen rows. Store `j` holds, at its local entry
  `(r, q)`, the score built from row `16j + r` of the first projection (read back from the scratch buffer the
  projection was stored in, sixteen rows from row `16j`) and row `q` of the second projection. So every store is
  the restriction to its rows of ONE function of the block index `(0, n, m)`,

      entry(n, m) = (Σ_e max((px(n,e) + py(m,e)) + lin_b(0,e), 0) · out_w(0,e)) + out_b(0,0),

  and, the eight stores tiling the block, the block the body leaves is that function.
-/
import proofs.«163208_j1503238554110_2_alg».proof.Proof.Gen.KernelIdeal.Frame
import proofs.«163208_j1503238554110_2_alg».proof.Proof.PairChunk
import Idealize.ShloMosaic.Lib.Pipeline.Value
import Idealize.ShloMosaic.Lib.Pipeline.FrameBody

set_option maxRecDepth 16384

noncomputable section

open scoped BigOperators

namespace Cert.PairKernel

open Idealize.ShloMosaic Idealize.ShloMosaic.ValueIdx Idealize.ShloMosaic.TcCoe Idealize.ShloMosaic.Tactic Idealize.SL.Sem
open Cert.KernelIdeal Cert.KernelIdeal.Gen

/-- The score of rows `n` and `m` of the two staged blocks, from the seven input blocks. -/
def entry (x0 x1 : Vec Ideal S1x128x128 .f32) (x2 x3 : Vec Ideal S128x128 .f32) (x4 x5 : Vec Ideal S1x128 .f32)
    (x6 : Vec Ideal S1x1 .f32) (n m : Fin 128) : Ideal .f32 :=
  (∑ e : Fin 128, max ((k0_pay2 x0 x2 (ix2 n e) + k0_pay2 x1 x3 (ix2 m e)) + x4 (ix2 (0 : Fin 1) e)) 0
      * x5 (ix2 (0 : Fin 1) e)) + x6 (ix2 (0 : Fin 1) (0 : Fin 1))

/-- The output block as a function of its index `(0, n, m)`. -/
def blockFn (x0 x1 : Vec Ideal S1x128x128 .f32) (x2 x3 : Vec Ideal S128x128 .f32) (x4 x5 : Vec Ideal S1x128 .f32)
    (x6 : Vec Ideal S1x1 .f32) : S1x128x128.Idx → Ideal .f32 :=
  fun y => entry x0 x1 x2 x3 x4 x5 x6 (⟨(y 1).val, (y 1).isLt⟩ : Fin 128) (⟨(y 2).val, (y 2).isLt⟩ : Fin 128)

theorem hz2 : (![0, 0] : Fin 2 → Nat) = fun _ => 0 := funext fun a => by fin_cases a <;> rfl
theorem hz3 : (![0, 0, 0] : Fin 3 → Nat) = fun _ => 0 := funext fun a => by fin_cases a <;> rfl

/-- Sixteen rows of a 128×128 scratch buffer read back after ONE store that filled the whole buffer: the rows of
    the stored value. -/
theorem readRows {Val : EltTy → Type} [∀ e, Nonempty (Val e)] {sig : RefSig} {κ : Kind} {sp : Space}
    (v : View sig κ sp S128x128 .f32) (P : S128x128.Idx → Val .f32)
    (inbP : ∀ a, (![0, 0] : Fin 2 → Nat) a + S128x128.size a ≤ S128x128.size a)
    (o : Nat) (inbL : ∀ a, (![o, 0] : Fin 2 → Nat) a + S16x128.size a ≤ S128x128.size a) :
    v.readCov [(⟨Rect.unit (s := S128x128) ![0, 0] S128x128.size inbP, P⟩ : View.Piece Val S128x128 .f32)]
        (Rect.unit (s := S128x128) ![o, 0] S16x128.size inbL).toLoadRect
      = View.ld P (Rect.unit (s := S128x128) ![o, 0] S16x128.size inbL) := by
  rw [View.readCov_eq_canon_ld _ _ _ (fun y => ⟨_, List.mem_singleton_self _, View.mem_set_unit_zero hz2 inbP y⟩),
    View.canon_unit_zero hz2]

/-- A store of sixteen rows at row `o`, at its local entry, is `blockFn` at the entry's place in the block. -/
theorem piece_apply (x0 x1 : Vec Ideal S1x128x128 .f32) (x2 x3 : Vec Ideal S128x128 .f32) (x4 x5 : Vec Ideal S1x128 .f32)
    (x6 : Vec Ideal S1x1 .f32) (o : Nat) (ho : o + 16 ≤ 128)
    (inbS : ∀ a, (![0, o, 0] : Fin 3 → Nat) a + S1x16x128.size a ≤ S1x128x128.size a)
    (inbL : ∀ a, (![o, 0] : Fin 2 → Nat) a + S16x128.size a ≤ S128x128.size a) (x : S1x16x128.Idx) :
    rows (summed (k0_pay6 x6) (weighted (k0_pay5 x5) (hidden (k0_pay4 x4) (k0_pay3 x1 x3)
        (View.ld (k0_pay2 x0 x2) (Rect.unit (s := S128x128) ![o, 0] S16x128.size inbL))))) x
      = blockFn x0 x1 x2 x3 x4 x5 x6 ((Rect.unit (s := S1x128x128) ![0, o, 0] S1x16x128.size inbS).emb x) := by
  obtain ⟨z, r, q, rfl⟩ : ∃ (z : Fin 1) (r : Fin 16) (q : Fin 128), x = ix3 z r q := ⟨x 0, x 1, x 2, eq_ix3 x⟩
  obtain rfl : z = 0 := Subsingleton.elim _ _
  have hr : r.val < 16 := r.isLt
  have hq : q.val < 128 := q.isLt
  rw [group_apply, pay6_eq]
  have hb : blockFn x0 x1 x2 x3 x4 x5 x6 ((Rect.unit (s := S1x128x128) ![0, o, 0] S1x16x128.size inbS).emb (ix3 (0 : Fin 1) r q))
      = entry x0 x1 x2 x3 x4 x5 x6 (⟨o + r.val, by omega⟩ : Fin 128) q := by
    unfold blockFn
    congr 1
    · exact Fin.ext (by show o + 1 * r.val = o + r.val; omega)
    · exact Fin.ext (by show 0 + 1 * q.val = q.val; omega)
  rw [hb]
  unfold entry
  refine congrArg (· + x6 (ix2 (0 : Fin 1) (0 : Fin 1))) (Finset.sum_congr rfl fun e _ => ?_)
  rw [pay4_apply, pay5_apply, pay3_eq]
  have h1 : View.ld (Val := Elt Ideal) (e' := EltTy.f32) (k0_pay2 x0 x2)
        (Rect.unit (s := S128x128) ![o, 0] S16x128.size inbL) (ix2 r e)
      = k0_pay2 x0 x2 (ix2 (⟨o + r.val, by omega⟩ : Fin 128) e) := by
    show k0_pay2 x0 x2 ((Rect.unit (s := S128x128) ![o, 0] S16x128.size inbL).emb (ix2 r e))
      = k0_pay2 x0 x2 (ix2 (⟨o + r.val, by omega⟩ : Fin 128) e)
    refine congrArg (k0_pay2 x0 x2) (funext fun a => Fin.ext ?_)
    match a with
    | ⟨0, _⟩ => show o + 1 * r.val = o + r.val; omega
    | ⟨1, _⟩ => show 0 + 1 * e.val = e.val; omega
  rw [h1]

/-- The same with the group's rows of the first projection read back from the scratch buffer it was stored in. -/
theorem piece_read {sig : RefSig} {κ : Kind} {sp : Space} (v : View sig κ sp S128x128 .f32)
    (x0 x1 : Vec Ideal S1x128x128 .f32) (x2 x3 : Vec Ideal S128x128 .f32) (x4 x5 : Vec Ideal S1x128 .f32)
    (x6 : Vec Ideal S1x1 .f32) (o : Nat) (ho : o + 16 ≤ 128)
    (inbP : ∀ a, (![0, 0] : Fin 2 → Nat) a + S128x128.size a ≤ S128x128.size a)
    (inbS : ∀ a, (![0, o, 0] : Fin 3 → Nat) a + S1x16x128.size a ≤ S1x128x128.size a)
    (inbL : ∀ a, (![o, 0] : Fin 2 → Nat) a + S16x128.size a ≤ S128x128.size a) (x : S1x16x128.Idx) :
    rows (summed (k0_pay6 x6) (weighted (k0_pay5 x5) (hidden (k0_pay4 x4) (k0_pay3 x1 x3)
        (v.readCov [(⟨Rect.unit (s := S128x128) ![0, 0] S128x128.size inbP, k0_pay2 x0 x2⟩ : View.Piece (Elt Ideal) S128x128 .f32)]
          (Rect.unit (s := S128x128) ![o, 0] S16x128.size inbL).toLoadRect)))) x
      = blockFn x0 x1 x2 x3 x4 x5 x6 ((Rect.unit (s := S1x128x128) ![0, o, 0] S1x16x128.size inbS).emb x) := by
  rw [readRows (Val := Elt Ideal) v (k0_pay2 x0 x2) inbP o inbL]
  exact piece_apply x0 x1 x2 x3 x4 x5 x6 o ho inbS inbL x

/-- THE BLOCK the body leaves, from any staging memrefs and input blocks: `blockFn` of the input blocks. -/
theorem block_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S1x128x128 .f32) (harg10 : arg10.IsWhole) (arg11 : Memref sig .tc .vmem S128x128 .f32) (harg11 : arg11.IsWhole) (arg12 : Memref sig .tc .vmem S128x128 .f32) (harg12 : arg12.IsWhole) (x0 : Vec Ideal S1x128x128 .f32) (x1 : Vec Ideal S1x128x128 .f32) (x2 : Vec Ideal S128x128 .f32) (x3 : Vec Ideal S128x128 .f32) (x4 : Vec Ideal S1x128 .f32) (x5 : Vec Ideal S1x128 .f32) (x6 : Vec Ideal S1x1 .f32) :
    out0_A_7 (F := Ideal) c i arg3 harg3 arg4 harg4 arg5 harg5 arg6 harg6 arg7 harg7 arg8 harg8 arg9 harg9 arg10 harg10 arg11 harg11 arg12 harg12 x0 x1 x2 x3 x4 x5 x6 = blockFn x0 x1 x2 x3 x4 x5 x6 := by
  funext y
  unfold out0_A_7
  refine (View.read_writes_apply_eq_canon VO0_7 VO0_7.junk y _ (cover0_A_7 c i arg3 harg3 arg4 harg4 arg5 harg5 arg6 harg6 arg7 harg7 arg8 harg8 arg9 harg9 arg10 harg10 arg11 harg11 arg12 harg12 x0 x1 x2 x3 x4 x5 x6 y)).trans ?_
  refine View.canon_apply_of_pieces (blockFn x0 x1 x2 x3 x4 x5 x6) _ ?_ y (cover0_A_7 c i arg3 harg3 arg4 harg4 arg5 harg5 arg6 harg6 arg7 harg7 arg8 harg8 arg9 harg9 arg10 harg10 arg11 harg11 arg12 harg12 x0 x1 x2 x3 x4 x5 x6 y)
  unfold kernelRun0_A
  dsimp only
  sl_unfold_words
  simp only [View.readAt_eq_ld, harg3.read_unread, harg4.read_unread, harg5.read_unread, harg6.read_unread,
    harg7.read_unread, harg8.read_unread, harg9.read_unread, View.ld_unit_zero (S := S1x128x128) hz3,
    View.ld_unit_zero (S := S128x128) hz2, View.ld_unit_zero (S := S1x128) hz2, View.ld_unit_zero (S := S1x1) hz2,
    View.readCov_unit_zero (S := S128x128) _ hz2]
  intro p hp
  simp only [List.mem_cons, List.not_mem_nil, or_false] at hp
  rcases hp with rfl | rfl | rfl | rfl | rfl | rfl | rfl | rfl
  · intro x
    exact (congrFun (pay1_17_eq (k0_pay4 x4) (k0_pay5 x5) (k0_pay6 x6) (k0_pay3 x1 x3) _) x).trans
      (piece_read arg11.view x0 x1 x2 x3 x4 x5 x6 112 (by decide) (by decide) (by decide) (by decide) x)
  · intro x
    exact (congrFun (pay16_eq (k0_pay4 x4) (k0_pay5 x5) (k0_pay6 x6) (k0_pay3 x1 x3) _) x).trans
      (piece_read arg11.view x0 x1 x2 x3 x4 x5 x6 96 (by decide) (by decide) (by decide) (by decide) x)
  · intro x
    exact (congrFun (pay15_14_eq (k0_pay4 x4) (k0_pay5 x5) (k0_pay6 x6) (k0_pay3 x1 x3) _) x).trans
      (piece_read arg11.view x0 x1 x2 x3 x4 x5 x6 80 (by decide) (by decide) (by decide) (by decide) x)
  · intro x
    exact (congrFun (pay13_eq (k0_pay4 x4) (k0_pay5 x5) (k0_pay6 x6) (k0_pay3 x1 x3) _) x).trans
      (piece_read arg11.view x0 x1 x2 x3 x4 x5 x6 64 (by decide) (by decide) (by decide) (by decide) x)
  · intro x
    exact (congrFun (pay12_11_eq (k0_pay4 x4) (k0_pay5 x5) (k0_pay6 x6) (k0_pay3 x1 x3) _) x).trans
      (piece_read arg11.view x0 x1 x2 x3 x4 x5 x6 48 (by decide) (by decide) (by decide) (by decide) x)
  · intro x
    exact (congrFun (pay10_eq (k0_pay4 x4) (k0_pay5 x5) (k0_pay6 x6) (k0_pay3 x1 x3) _) x).trans
      (piece_read arg11.view x0 x1 x2 x3 x4 x5 x6 32 (by decide) (by decide) (by decide) (by decide) x)
  · intro x
    exact (congrFun (pay9_8_eq (k0_pay4 x4) (k0_pay5 x5) (k0_pay6 x6) (k0_pay3 x1 x3) _) x).trans
      (piece_read arg11.view x0 x1 x2 x3 x4 x5 x6 16 (by decide) (by decide) (by decide) (by decide) x)
  · intro x
    exact (congrFun (pay7_eq (k0_pay4 x4) (k0_pay5 x5) (k0_pay6 x6) (k0_pay3 x1 x3) _) x).trans
      (piece_read arg11.view x0 x1 x2 x3 x4 x5 x6 0 (by decide) (by decide) (by decide) (by decide) x)

end Cert.PairKernel

end
-- ==== Proof.PairSpec.lean ====
/-
  The pairwise score, as one function of the arrays the kernel stages.

  For a batch `b`, a row `n` of the first point set and a row `m` of the second, the score is

      ( Σ_e  max( (px(b,n,e) + py(b,m,e)) + lin_b(e), 0 ) · out_w(e) ) + out_b,

  where `px(b,n,e) = Σ_k Xc(b,n,k) · Wx(e,k)` and `py(b,m,e) = Σ_k Y(b,m,k) · Wy(e,k)` are the two projections
  onto the 128 features, each a full 128-term sum, everything on the extended reals. Both programs compute exactly
  this expression, term for term and in this order of the additions, so no algebraic law beyond re-indexing is
  needed to join them.
-/
import Idealize.ShloMosaic.PureOps.Ideal.Laws
import Idealize.ShloMosaic.Lib.ValueIdx

noncomputable section

open scoped BigOperators

namespace Cert.PairSpec

open Idealize.ShloMosaic Idealize.ShloMosaic.ValueIdx

/-- Row `(b, n)` of a batch of 256×128 matrices against row `e` of a 128×128 matrix: `Σ_k Z(b,n,k) · W(e,k)`. -/
def proj (Z : (⟨3, ![8, 256, 128]⟩ : Shape).Idx → EReal) (W : (⟨2, ![128, 128]⟩ : Shape).Idx → EReal)
    (b : Fin 8) (n : Fin 256) (e : Fin 128) : EReal :=
  ∑ k : Fin 128, Z (ix3 b n k) * W (ix2 e k)

/-- One feature's contribution to a pair's score: the rectified sum of the two projections and the bias, weighted. -/
def term (px py lb ow : EReal) : EReal := max ((px + py) + lb) 0 * ow

/-- The score of the pair `(n, m)` in batch `b`. -/
def pair (Xc Y : (⟨3, ![8, 256, 128]⟩ : Shape).Idx → EReal) (Wx Wy : (⟨2, ![128, 128]⟩ : Shape).Idx → EReal)
    (linb outw : Fin 128 → EReal) (outb : EReal) (b : Fin 8) (n m : Fin 256) : EReal :=
  (∑ e : Fin 128, term (proj Xc Wx b n e) (proj Y Wy b m e) (linb e) (outw e)) + outb

/-- The whole result array [8, 256, 256]. -/
def score (Xc Y : (⟨3, ![8, 256, 128]⟩ : Shape).Idx → EReal) (Wx Wy : (⟨2, ![128, 128]⟩ : Shape).Idx → EReal)
    (linb outw : Fin 128 → EReal) (outb : EReal) : (⟨3, ![8, 256, 256]⟩ : Shape).Idx → EReal :=
  fun j => pair Xc Y Wx Wy linb outw outb (j 0) (j 1) (j 2)

theorem score_apply (Xc Y : (⟨3, ![8, 256, 128]⟩ : Shape).Idx → EReal) (Wx Wy : (⟨2, ![128, 128]⟩ : Shape).Idx → EReal)
    (linb outw : Fin 128 → EReal) (outb : EReal) (b : Fin 8) (n m : Fin 256) :
    score Xc Y Wx Wy linb outw outb (ix3 b n m) = pair Xc Y Wx Wy linb outw outb b n m := rfl

end Cert.PairSpec

end
-- ==== Proof.PairArray.lean ====
/-
  From the blocks to the whole result array.

  The grid has 8 × 2 × 2 points `(b, i, j)`. At a point the region stages rows `128i … 128i+127` of batch `b` of
  the scaled first point set, rows `128j … 128j+127` of batch `b` of the second point set, and the five parameter
  arrays whole; it writes back the 128×128 tile `(b, i, j)` of the result. The tile is the body's block function
  of the staged blocks, and read at the block's place in the arrays that is the pairwise score of the whole arrays
  at `(b, 128i + n, 128j + m)`. The 32 tiles fill the result array, so the array after the run is the score.
-/
import proofs.«163208_j1503238554110_2_alg».proof.Proof.Gen.KernelIdeal.Value
import proofs.«163208_j1503238554110_2_alg».proof.Proof.PairBlock
import proofs.«163208_j1503238554110_2_alg».proof.Proof.PairSpec

set_option maxRecDepth 16384

noncomputable section

open scoped BigOperators

namespace Cert.PairKernel

open Idealize.ShloMosaic Idealize.ShloMosaic.ValueIdx Idealize.ShloMosaic.TcCoe Idealize.SL.Sem
open Cert.KernelIdeal Cert.KernelIdeal.Gen Cert.PairSpec
open Idealize.ShloMosaic.Pipeline (Dat)

/-! ## A tile's entry is the score of the whole arrays -/

/-- If the staged blocks are rows `128I …` and `128J …` of batch `B` of two arrays and the parameter blocks are
    the parameter arrays, the block function at `(n, m)` is the pair score at `(B, 128I + n, 128J + m)`. -/
theorem tile_entry (Xc Y : S8x256x128.Idx → EReal) (Wx Wy : S128x128.Idx → EReal) (lb ow : S1x128.Idx → EReal)
    (ob : S1x1.Idx → EReal)
    (x0 x1 : Vec Ideal S1x128x128 .f32) (x2 x3 : Vec Ideal S128x128 .f32) (x4 x5 : Vec Ideal S1x128 .f32)
    (x6 : Vec Ideal S1x1 .f32) (B : Fin 8) (N M : Fin 256) (n m : Fin 128)
    (h0 : ∀ k : Fin 128, x0 (ix3 (0 : Fin 1) n k) = Xc (ix3 B N k))
    (h1 : ∀ k : Fin 128, x1 (ix3 (0 : Fin 1) m k) = Y (ix3 B M k))
    (h2 : x2 = Wx) (h3 : x3 = Wy) (h4 : x4 = lb) (h5 : x5 = ow) (h6 : x6 = ob) :
    entry x0 x1 x2 x3 x4 x5 x6 n m
      = pair Xc Y Wx Wy (fun e => lb (ix2 (0 : Fin 1) e)) (fun e => ow (ix2 (0 : Fin 1) e))
          (ob (ix2 (0 : Fin 1) (0 : Fin 1))) B N M := by
  subst h2 h3 h4 h5 h6
  unfold entry pair term proj
  refine congrArg (· + x6 (ix2 (0 : Fin 1) (0 : Fin 1))) (Finset.sum_congr rfl fun e _ => ?_)
  rw [pay2_apply, pay2_apply]
  simp only [h0, h1]

/-! ## The array after the run -/

variable (m : (ℓ : Loc nD τ sig) → Buf (Elt Ideal) ℓ) (ρ : Dev nD → PrngReg)

/-- The result array as the score of the arrays the region is launched on. -/
def G (c : Dev nD) : S8x256x256.Idx → EReal :=
  score (V m c main_v7) (V m c main_arg1) (V m c main_v8) (V m c main_v9)
    (fun e => (V m c main_v10 : S1x128.Idx → EReal) (ix2 (0 : Fin 1) e))
    (fun e => (V m c main_arg7 : S1x128.Idx → EReal) (ix2 (0 : Fin 1) e))
    ((V m c main_v11 : S1x1.Idx → EReal) (ix2 (0 : Fin 1) (0 : Fin 1)))

/-- The printed index maps over the 32 grid points: the first point set's block moves with the tile's batch and
    row-tile, the second's with its batch and column-tile, the parameters' blocks stay at the origin, and the
    tile's block indices stay in their ranges. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = win0_7.index t (2 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) < 8 ∧ win0_7.index t (1 : Fin 3) < 2 ∧ win0_7.index t (2 : Fin 3) < 2 :=
  (by decide +kernel : ∀ t : Fin grid0.N, _)

/-- Every tile is some point's. -/
theorem idx_onto : ∀ (q0 : Fin 8) (q1 q2 : Fin 2), ∃ t : Fin cfg0.N, win0_7.index t = ![q0.val, q1.val, q2.val] :=
  (by decide +kernel : ∀ (q0 : Fin 8) (q1 q2 : Fin 2), ∃ t : Fin grid0.N, win0_7.index t = ![q0.val, q1.val, q2.val])

/-- WHAT POINT `t` WRITES BACK is tile `t` of the score. -/
theorem flushed_eq (c : Dev nD) (t : Fin cfg0.N) :
    (dats m 0 c).flushed 7 t = ((cfg0.win 7).blk t).view.read (Elt Ideal) (G m c) := by
  rw [Value.flushed7_A, block_eq]
  obtain ⟨f00, f01, f02, f10, f11, f12, f20, f21, f30, f31, f40, f41, f50, f51, f60, f61, b0, b1, b2⟩ := idx_facts t
  funext j
  have hj0 : (j 0).val < 1 := (j 0).isLt
  have hj1 : (j 1).val < 128 := (j 1).isLt
  have hj2 : (j 2).val < 128 := (j 2).isLt
  show entry (iblk m c 0 t) (iblk m c 1 t) (iblk m c 2 t) (iblk m c 3 t) (iblk m c 4 t) (iblk m c 5 t) (iblk m c 6 t)
      (⟨(j 1).val, hj1⟩ : Fin 128) (⟨(j 2).val, hj2⟩ : Fin 128)
    = G m c (((cfg0.win 7).blk t).view.emb j)
  refine (tile_entry (V m c main_v7) (V m c main_arg1) (V m c main_v8) (V m c main_v9) (V m c main_v10)
    (V m c main_arg7) (V m c main_v11) (iblk m c 0 t) (iblk m c 1 t) (iblk m c 2 t) (iblk m c 3 t) (iblk m c 4 t)
    (iblk m c 5 t) (iblk m c 6 t) (⟨win0_7.index t (0 : Fin 3), b0⟩ : Fin 8)
    (⟨win0_7.index t (1 : Fin 3) * 128 + (j 1).val, by omega⟩ : Fin 256)
    (⟨win0_7.index t (2 : Fin 3) * 128 + (j 2).val, by omega⟩ : Fin 256)
    (⟨(j 1).val, hj1⟩ : Fin 128) (⟨(j 2).val, hj2⟩ : Fin 128) ?_ ?_ ?_ ?_ ?_ ?_ ?_).trans ?_
  · intro k
    have hk : k.val < 128 := k.isLt
    show V m c main_v7 (((cfg0.win 0).blk t).view.emb (ix3 (0 : Fin 1) (⟨(j 1).val, hj1⟩ : Fin 128) k)) = _
    refine congrArg (V m c main_v7) (funext fun a => Fin.ext ?_)
    match a with
    | ⟨0, _⟩ => show win0_0.index t (0 : Fin 3) * 1 + 1 * 0 = win0_7.index t (0 : Fin 3); omega
    | ⟨1, _⟩ => show win0_0.index t (1 : Fin 3) * 128 + 1 * (j 1).val = win0_7.index t (1 : Fin 3) * 128 + (j 1).val; omega
    | ⟨2, _⟩ => show win0_0.index t (2 : Fin 3) * 128 + 1 * k.val = k.val; omega
  · intro k
    have hk : k.val < 128 := k.isLt
    show V m c main_arg1 (((cfg0.win 1).blk t).view.emb (ix3 (0 : Fin 1) (⟨(j 2).val, hj2⟩ : Fin 128) k)) = _
    refine congrArg (V m c main_arg1) (funext fun a => Fin.ext ?_)
    match a with
    | ⟨0, _⟩ => show win0_1.index t (0 : Fin 3) * 1 + 1 * 0 = win0_7.index t (0 : Fin 3); omega
    | ⟨1, _⟩ => show win0_1.index t (1 : Fin 3) * 128 + 1 * (j 2).val = win0_7.index t (2 : Fin 3) * 128 + (j 2).val; omega
    | ⟨2, _⟩ => show win0_1.index t (2 : Fin 3) * 128 + 1 * k.val = k.val; omega
  · funext y
    show V m c main_v8 (((cfg0.win 2).blk t).view.emb y) = V m c main_v8 y
    refine congrArg (V m c main_v8) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V m c main_v9 (((cfg0.win 3).blk t).view.emb y) = V m c main_v9 y
    refine congrArg (V m c main_v9) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V m c main_v10 (((cfg0.win 4).blk t).view.emb y) = V m c main_v10 y
    refine congrArg (V m c main_v10) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · funext y
    show V m c main_arg7 (((cfg0.win 5).blk t).view.emb y) = V m c main_arg7 y
    refine congrArg (V m c main_arg7) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  · funext y
    show V m c main_v11 (((cfg0.win 6).blk t).view.emb y) = V m c main_v11 y
    refine congrArg (V m c main_v11) (funext fun a => Fin.ext ?_)
    match a with
    | ⟨0, _⟩ => show win0_6.index t (0 : Fin 2) * 1 + 1 * (y 0).val = (y 0).val; omega
    | ⟨1, _⟩ => show win0_6.index t (1 : Fin 2) * 1 + 1 * (y 1).val = (y 1).val; omega
  · show pair _ _ _ _ _ _ _ _ _ _ = pair _ _ _ _ _ _ _ ((((cfg0.win 7).blk t).view.emb j) 0)
      ((((cfg0.win 7).blk t).view.emb j) 1) ((((cfg0.win 7).blk t).view.emb j) 2)
    congr 1
    · exact Fin.ext (by show win0_7.index t (0 : Fin 3) = win0_7.index t (0 : Fin 3) * 1 + 1 * (j 0).val; omega)
    · exact Fin.ext (by show win0_7.index t (1 : Fin 3) * 128 + (j 1).val = win0_7.index t (1 : Fin 3) * 128 + 1 * (j 1).val; omega)
    · exact Fin.ext (by show win0_7.index t (2 : Fin 3) * 128 + (j 2).val = win0_7.index t (2 : Fin 3) * 128 + 1 * (j 2).val; omega)

/-- An index of the result array is in point `t`'s tile iff each coordinate is in the tile's range on its axis. -/
theorem mem_blk (t : Fin cfg0.N) (i : S8x256x256.Idx) :
    i ∈ ((cfg0.win 7).blk t).view.set ↔ ∀ a : Fin 3, win0_7.index t a * S1x128x128.size a ≤ (i a).val
      ∧ (i a).val < win0_7.index t a * S1x128x128.size a + S1x128x128.size a := by
  show i ∈ ((View.whole main_v12).slice (win0_7.rect t)).set ↔ _
  rw [View.set_slice_whole, Rect.mem_set_unit]
  exact Iff.rfl

/-- The 32 tiles fill the result array. -/
theorem cover (i : S8x256x256.Idx) :
    ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, hi0⟩ ⟨(i 1).val / 128, by omega⟩ ⟨(i 2).val / 128, by omega⟩
  have q0 : win0_7.index t (0 : Fin 3) = (i 0).val := congrFun ht 0
  have q1 : win0_7.index t (1 : Fin 3) = (i 1).val / 128 := congrFun ht 1
  have q2 : win0_7.index t (2 : Fin 3) = (i 2).val / 128 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

/-- THE RESULT ARRAY after the run is the score of the arrays the region was launched on. -/
theorem final (c : Dev nD) : (dats m 0 c).arrAt 7 cfg0.N = G m c :=
  (dats m 0 c).arrAt_eq_of_cover 7 (G m c) (fun t _ => flushed_eq m c t) (cover)

end Cert.PairKernel

end
-- ==== Proof.PairHost.lean ====
/-
  The arrays the kernel's region is launched on, as functions of the arguments.

  Before the region @main computes, on the host, the scaled first point set
  `Xc = X · tanh(weights · A_wᵀ + A_b)` (the coefficient of batch `b` and feature `k` repeated over the 256
  rows), the two halves of `lin_w` (columns 0–127 and 128–255), and `lin_b` and `out_b` reshaped to a row and to
  a [1,1] array. The reference computes `Xc` by the same operations except that it first transposes `A_w` and
  contracts the transposed array's first axis; at the ideal instance both contractions are the same 1024-term sum,
  so the two arrays are equal and the kernel's `Xc` IS the reference's. The slices are the reference's own, and
  the reshapes move no element.
-/
import proofs.«163208_j1503238554110_2_alg».proof.Proof.Gen.KernelIdeal.Frame
import proofs.«163208_j1503238554110_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.PairHost

open Idealize.ShloMosaic Idealize.ShloMosaic.ValueIdx Idealize.ShloMosaic.TcCoe Idealize.SL.Sem Idealize.ShloMosaic.StableHlo
open Cert.KernelIdeal Cert.KernelIdeal.Gen

/-! ## The coefficient's contraction, written both ways -/

/-- `weights · A_wᵀ` contracted on the two second axes is the reference's contraction against the transposed
    array: at `(b, o)` both are `Σ_i weights(b,i) · A_w(o,i)`. -/
theorem coeffDot_eq (w : FVec Ideal S8x1024 .f32) (A : FVec Ideal S128x1024 .f32) :
    (Host.dotGeneral (F := Ideal) dot_S8x1024_S128x1024_S8x128_1_1_0_0_n_n none w A : S8x128.Idx → EReal)
      = Cert.ReferenceIdeal.Read.val_main_v1 (F := Ideal) w A := by
  funext i
  rw [Cert.ReferenceIdeal.Read.val_main_v1_apply]
  simp only [Host.dotGeneral]
  rw [Ideal.dotGeneral_apply,
    ← Equiv.sum_comp (ValueIdx.contrEquiv1 dot_S8x1024_S128x1024_S8x128_1_1_0_0_n_n 1024 rfl rfl).symm]
  refine Finset.sum_congr rfl fun k _ => ?_
  have hk := ValueIdx.contrEquiv1_symm_val dot_S8x1024_S128x1024_S8x128_1_1_0_0_n_n 1024 rfl rfl k
  rw [Cert.ReferenceIdeal.Read.val_main_v0_apply]
  congr 1
  · refine congrArg w (funext fun a => Fin.ext ?_)
    match a with
    | ⟨0, _⟩ =>
      show (dot_S8x1024_S128x1024_S8x128_1_1_0_0_n_n.lhsIdx i _ 0).val = (i 0).val
      unfold DotDims.lhsIdx
      rw [dif_neg (show ¬(0 : Fin S8x1024.rank) ∈ dot_S8x1024_S128x1024_S8x128_1_1_0_0_n_n.lhsBatch by decide),
        dif_pos (show (0 : Fin S8x1024.rank) ∈ dot_S8x1024_S128x1024_S8x128_1_1_0_0_n_n.lhsNonContracting by decide)]
      rfl
    | ⟨1, _⟩ => exact (dot_S8x1024_S128x1024_S8x128_1_1_0_0_n_n.lhsIdx_val_of_single rfl i _).trans hk
  · refine congrArg A (funext fun a => Fin.ext ?_)
    match a with
    | ⟨0, _⟩ =>
      show (dot_S8x1024_S128x1024_S8x128_1_1_0_0_n_n.rhsIdx i _ 0).val = (i 1).val
      unfold DotDims.rhsIdx
      rw [dif_neg (show ¬(0 : Fin S128x1024.rank) ∈ dot_S8x1024_S128x1024_S8x128_1_1_0_0_n_n.rhsBatch by decide),
        dif_pos (show (0 : Fin S128x1024.rank) ∈ dot_S8x1024_S128x1024_S8x128_1_1_0_0_n_n.rhsNonContracting by decide)]
      rfl
    | ⟨1, _⟩ => exact (dot_S8x1024_S128x1024_S8x128_1_1_0_0_n_n.rhsIdx_val_of_single rfl i _).trans hk

/-! ## The staged arrays -/

variable (m : (ℓ : Loc nD τ sig) → Buf (Elt Ideal) ℓ) (c : Dev nD)

/-- The kernel's host chain for the scaled first point set, as one function of the four arguments it reads. -/
def scaled (a0 : FVec Ideal S8x256x128 .f32) (a2 : FVec Ideal S8x1024 .f32) (a3 : FVec Ideal S128x1024 .f32) (a4 : FVec Ideal S128 .f32) :
    S8x256x128.Idx → EReal :=
  mulf (F := Ideal) a0
    (broadcastInDim S8x256x128 ![0, 1, 2] bcast_S8x1x128_S8x256x128_0_1_2
      (broadcastInDim S8x1x128 ![0, 2] bcast_S8x128_S8x1x128_0_2
        (Host.tanh (F := Ideal) (addf (F := Ideal)
          (Host.dotGeneral (F := Ideal) dot_S8x1024_S128x1024_S8x128_1_1_0_0_n_n none a2 a3)
          (broadcastInDim S8x128 ![0, 1] bcast_S1x128_S8x128_0_1 (broadcastInDim S1x128 ![1] bcast_S128_S1x128_1 a4))))))

/-- It is the reference's chain: only the first contraction is written differently. -/
theorem scaled_eq (a0 : FVec Ideal S8x256x128 .f32) (a2 : FVec Ideal S8x1024 .f32) (a3 : FVec Ideal S128x1024 .f32) (a4 : FVec Ideal S128 .f32) :
    scaled a0 a2 a3 a4 = Cert.ReferenceIdeal.Read.val_main_v8 (F := Ideal) a0 a2 a3 a4 := by
  unfold scaled
  rw [coeffDot_eq]
  rfl

/-- The scaled first point set the region stages is the reference's. -/
theorem V_Xc : (V m c main_v7 : S8x256x128.Idx → EReal)
    = Cert.ReferenceIdeal.Read.val_main_v8 (F := Ideal) (m ((c : Thread nD τ).loc main_arg0))
        (m ((c : Thread nD τ).loc main_arg2)) (m ((c : Thread nD τ).loc main_arg3)) (m ((c : Thread nD τ).loc main_arg4)) := by
  have e : (V m c main_v7 : S8x256x128.Idx → EReal)
      = scaled (m ((c : Thread nD τ).loc main_arg0)) (m ((c : Thread nD τ).loc main_arg2))
          (m ((c : Thread nD τ).loc main_arg3)) (m ((c : Thread nD τ).loc main_arg4)) := by
    dsimp only [Gen.V, Gen.hostOps0]; after_results; rfl
  rw [e, scaled_eq]

/-- The first half of `lin_w`. -/
theorem V_Wx : (V m c main_v8 : S128x128.Idx → EReal)
    = Cert.ReferenceIdeal.Read.val_main_v9 (F := Ideal) (m ((c : Thread nD τ).loc main_arg5)) := by
  dsimp only [Gen.V, Gen.hostOps0]; after_results; rfl

/-- The second half of `lin_w`. -/
theorem V_Wy : (V m c main_v9 : S128x128.Idx → EReal)
    = Cert.ReferenceIdeal.Read.val_main_v10 (F := Ideal) (m ((c : Thread nD τ).loc main_arg5)) := by
  dsimp only [Gen.V, Gen.hostOps0]; after_results; rfl

/-- `lin_b` as a row: entry `(0, e)` is entry `e`. -/
theorem V_linb (e : Fin 128) :
    (V m c main_v10 : S1x128.Idx → EReal) (ix2 (0 : Fin 1) e) = m ((c : Thread nD τ).loc main_arg6) (ix1 e) := by
  have h : (V m c main_v10 : S1x128.Idx → EReal)
      = shapeCast S1x128 (m ((c : Thread nD τ).loc main_arg6)) shapeCasts_S128_S1x128 := by
    dsimp only [Gen.V, Gen.hostOps0]; after_results; rfl
  rw [h]
  refine shapeCast_apply _ shapeCasts_S128_S1x128 (ix2 (0 : Fin 1) e) (ix1 e) ?_
  rw [Shape.rowMajor_val_one, Shape.rowMajor_val_two]
  show e.val = 0 * 128 + e.val
  omega

/-- `out_b` as a [1,1] array: its one entry. -/
theorem V_outb :
    (V m c main_v11 : S1x1.Idx → EReal) (ix2 (0 : Fin 1) (0 : Fin 1)) = m ((c : Thread nD τ).loc main_arg8) (ix1 (0 : Fin 1)) := by
  have h : (V m c main_v11 : S1x1.Idx → EReal)
      = shapeCast S1x1 (m ((c : Thread nD τ).loc main_arg8)) shapeCasts_S1_S1x1 := by
    dsimp only [Gen.V, Gen.hostOps0]; after_results; rfl
  rw [h]
  refine shapeCast_apply _ shapeCasts_S1_S1x1 (ix2 (0 : Fin 1) (0 : Fin 1)) (ix1 (0 : Fin 1)) ?_
  rw [Shape.rowMajor_val_one, Shape.rowMajor_val_two]
  rfl

end Cert.PairHost

end
-- ==== Proof.PairRef.lean ====
/-
  The reference's result at an entry is the pairwise score of the specification.

  The reference forms the two projections as host contractions over the last axis, broadcasts them against each
  other into [8,256,256,128], adds the bias over the features, rectifies against zero, contracts the feature axis
  with `out_w`, adds `out_b` and drops the trailing unit axis. Read at `(b, n, m)` through the generated
  one-operation-at-a-time lemmas, with each composed index identified by its coordinates, that is
  `(Σ_e max((px(b,n,e) + py(b,m,e)) + lin_b(e), 0) · out_w(0,e)) + out_b(0)`.
-/
import proofs.«163208_j1503238554110_2_alg».proof.Proof.Gen.ReferenceIdeal.Read
import proofs.«163208_j1503238554110_2_alg».proof.Proof.PairSpec

noncomputable section

open scoped BigOperators

namespace Cert.PairRef

open Idealize.ShloMosaic Idealize.ShloMosaic.ValueIdx Cert.ReferenceIdeal Cert.ReferenceIdeal.Read Cert.PairSpec

/-! ## The composed indices, by coordinates -/

theorem idx26 (b : Fin 8) (n m : Fin 256) : idx_main_v26 (ix3 b n m) = ix4 b n m (0 : Fin 1) := by
  have hb : b.val < 8 := b.isLt
  have hn : n.val < 256 := n.isLt
  have hm : m.val < 256 := m.isLt
  funext a; apply Fin.ext
  match a with
  | ⟨0, _⟩ => show ((b.val * 256 + n.val) * 256 + m.val) / 65536 = b.val; omega
  | ⟨1, _⟩ => show ((b.val * 256 + n.val) * 256 + m.val) / 256 % 256 = n.val; omega
  | ⟨2, _⟩ => show ((b.val * 256 + n.val) * 256 + m.val) / 1 % 256 = m.val; omega
  | ⟨3, _⟩ => rfl

theorem lidx22 (b : Fin 8) (n m : Fin 256) (k : Fin 128) :
    lidx_main_v22 (ix4 b n m (0 : Fin 1)) k = ix4 b n m k :=
  funext fun a => Fin.ext (by match a with | ⟨0, _⟩ => rfl | ⟨1, _⟩ => rfl | ⟨2, _⟩ => rfl | ⟨3, _⟩ => rfl)

theorem ridx22 (b : Fin 8) (n m : Fin 256) (k : Fin 128) :
    ridx_main_v22 (ix4 b n m (0 : Fin 1)) k = ix2 (0 : Fin 1) k :=
  funext fun a => Fin.ext (by match a with | ⟨0, _⟩ => rfl | ⟨1, _⟩ => rfl)

theorem idx24 (b : Fin 8) (n m : Fin 256) :
    idx_main_v23 (idx_main_v24 (ix4 b n m (0 : Fin 1))) = ix1 (0 : Fin 1) :=
  funext fun a => Fin.ext (by match a with | ⟨0, _⟩ => rfl)

theorem idx19 (b : Fin 8) (n m : Fin 256) (e : Fin 128) :
    idx_main_v18 (idx_main_v19 (ix4 b n m e)) = ix1 e :=
  funext fun a => Fin.ext (by match a with | ⟨0, _⟩ => rfl)

theorem idx15 (b : Fin 8) (n m : Fin 256) (e : Fin 128) :
    idx_main_v13 (idx_main_v15 (ix4 b n m e)) = ix3 b n e :=
  funext fun a => Fin.ext (by match a with | ⟨0, _⟩ => rfl | ⟨1, _⟩ => rfl | ⟨2, _⟩ => rfl)

theorem idx16 (b : Fin 8) (n m : Fin 256) (e : Fin 128) :
    idx_main_v14 (idx_main_v16 (ix4 b n m e)) = ix3 b m e :=
  funext fun a => Fin.ext (by match a with | ⟨0, _⟩ => rfl | ⟨1, _⟩ => rfl | ⟨2, _⟩ => rfl)

theorem lidx11 (b : Fin 8) (n : Fin 256) (e k : Fin 128) : lidx_main_v11 (ix3 b n e) k = ix3 b n k :=
  funext fun a => Fin.ext (by match a with | ⟨0, _⟩ => rfl | ⟨1, _⟩ => rfl | ⟨2, _⟩ => rfl)

theorem ridx11 (b : Fin 8) (n : Fin 256) (e k : Fin 128) : ridx_main_v11 (ix3 b n e) k = ix2 e k :=
  funext fun a => Fin.ext (by match a with | ⟨0, _⟩ => rfl | ⟨1, _⟩ => rfl)

theorem lidx12 (b : Fin 8) (n : Fin 256) (e k : Fin 128) : lidx_main_v12 (ix3 b n e) k = ix3 b n k :=
  funext fun a => Fin.ext (by match a with | ⟨0, _⟩ => rfl | ⟨1, _⟩ => rfl | ⟨2, _⟩ => rfl)

theorem ridx12 (b : Fin 8) (n : Fin 256) (e k : Fin 128) : ridx_main_v12 (ix3 b n e) k = ix2 e k :=
  funext fun a => Fin.ext (by match a with | ⟨0, _⟩ => rfl | ⟨1, _⟩ => rfl)

/-! ## The stages at an entry -/

/-- The first projection at `(b, n, e)`. -/
theorem px_entry (x0 : (⟨S8x256x128, .f32⟩ : BufTy).Contents (Elt Ideal)) (x2 : (⟨S8x1024, .f32⟩ : BufTy).Contents (Elt Ideal)) (x3 : (⟨S128x1024, .f32⟩ : BufTy).Contents (Elt Ideal)) (x4 : (⟨S128, .f32⟩ : BufTy).Contents (Elt Ideal))
    (x5 : (⟨S128x256, .f32⟩ : BufTy).Contents (Elt Ideal)) (b : Fin 8) (n : Fin 256) (e : Fin 128) :
    val_main_v11 (F := Ideal) x0 x2 x3 x4 x5 (ix3 b n e)
      = proj (val_main_v8 (F := Ideal) x0 x2 x3 x4) (val_main_v9 (F := Ideal) x5) b n e := by
  rw [val_main_v11_apply]
  unfold proj
  exact Finset.sum_congr rfl fun k _ => by rw [lidx11, ridx11]

/-- The second projection at `(b, m, e)`. -/
theorem py_entry (x1 : (⟨S8x256x128, .f32⟩ : BufTy).Contents (Elt Ideal)) (x5 : (⟨S128x256, .f32⟩ : BufTy).Contents (Elt Ideal)) (b : Fin 8) (m : Fin 256) (e : Fin 128) :
    val_main_v12 (F := Ideal) x1 x5 (ix3 b m e) = proj x1 (val_main_v10 (F := Ideal) x5) b m e := by
  rw [val_main_v12_apply]
  unfold proj
  exact Finset.sum_congr rfl fun k _ => by rw [lidx12, ridx12]

/-- The rectified sum at `(b, n, m, e)`. -/
theorem hidden_entry (x0 x1 : (⟨S8x256x128, .f32⟩ : BufTy).Contents (Elt Ideal)) (x2 : (⟨S8x1024, .f32⟩ : BufTy).Contents (Elt Ideal)) (x3 : (⟨S128x1024, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) (b : Fin 8) (n m : Fin 256) (e : Fin 128) :
    val_main_v21 (F := Ideal) x0 x1 x2 x3 x4 x5 x6 (ix4 b n m e)
      = max ((proj (val_main_v8 (F := Ideal) x0 x2 x3 x4) (val_main_v9 (F := Ideal) x5) b n e
              + proj x1 (val_main_v10 (F := Ideal) x5) b m e) + x6 (ix1 e)) 0 := by
  rw [val_main_v21_apply, val_main_v20_apply, val_main_v17_apply, val_main_v15_apply, val_main_v13_apply,
    val_main_v16_apply, val_main_v14_apply, val_main_v19_apply, val_main_v18_apply, val_main_call0_v0_apply,
    val_main_call0_cst_apply, idx15, idx16, idx19, px_entry, py_entry]
  simp only [Ideal.maximumf_def, Ideal.addf_def, Ideal.ofBits_def, Ideal.ofBits_zero_f32]

/-- The reference's result at `(b, n, m)`. -/
theorem ref_entry (x0 x1 : (⟨S8x256x128, .f32⟩ : BufTy).Contents (Elt Ideal)) (x2 : (⟨S8x1024, .f32⟩ : BufTy).Contents (Elt Ideal)) (x3 : (⟨S128x1024, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) (b : Fin 8) (n m : Fin 256) :
    val_main_v26 (F := Ideal) x0 x1 x2 x3 x4 x5 x6 x7 x8 (ix3 b n m)
      = pair (val_main_v8 (F := Ideal) x0 x2 x3 x4) x1 (val_main_v9 (F := Ideal) x5) (val_main_v10 (F := Ideal) x5)
          (fun e => x6 (ix1 e)) (fun e => x7 (ix2 (0 : Fin 1) e)) (x8 (ix1 (0 : Fin 1))) b n m := by
  rw [val_main_v26_apply, idx26, val_main_v25_apply, val_main_v22_apply, val_main_v24_apply, val_main_v23_apply, idx24]
  unfold pair term
  simp only [Ideal.addf_def]
  refine congrArg (· + x8 (ix1 (0 : Fin 1))) (Finset.sum_congr rfl fun k _ => ?_)
  rw [lidx22, ridx22, hidden_entry]

/-- So the reference's result array is the specification's `score`. -/
theorem ref_eq (x0 x1 : (⟨S8x256x128, .f32⟩ : BufTy).Contents (Elt Ideal)) (x2 : (⟨S8x1024, .f32⟩ : BufTy).Contents (Elt Ideal)) (x3 : (⟨S128x1024, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) :
    val_main_v26 (F := Ideal) x0 x1 x2 x3 x4 x5 x6 x7 x8
      = score (val_main_v8 (F := Ideal) x0 x2 x3 x4) x1 (val_main_v9 (F := Ideal) x5) (val_main_v10 (F := Ideal) x5)
          (fun e => x6 (ix1 e)) (fun e => x7 (ix2 (0 : Fin 1) e)) (x8 (ix1 (0 : Fin 1))) := by
  funext j
  obtain ⟨b, n, m, rfl⟩ : ∃ (b : Fin 8) (n m : Fin 256), j = ix3 b n m := ⟨j 0, j 1, j 2, eq_ix3 j⟩
  rw [ref_entry, score_apply]

end Cert.PairRef

end
-- ==== Proof.lean ====
/-
  The kernel computes, for two point sets `X`, `Y` of 256 points in 128 dimensions per batch, the pairwise score

      out(b, n, m) = ( Σ_e max( (px(b,n,e) + py(b,m,e)) + lin_b(e), 0 ) · out_w(0,e) ) + out_b(0),
      px(b,n,e) = Σ_k Xc(b,n,k) · lin_w(e,k),      py(b,m,e) = Σ_k Y(b,m,k) · lin_w(e,128+k),
      Xc(b,n,k) = X(b,n,k) · tanh( Σ_i weights(b,i) · A_w(k,i) + A_b(k) ),

  and so does the reference. The kernel forms `Xc`, the two halves of `lin_w` and the reshaped biases on the host,
  then one region over an 8 × 2 × 2 grid computes a 128×128 tile of `out` per point: the two projections of the
  staged blocks (bf16 operands, an f32 zero accumulator: at the ideal instance the plain 128-term sums) into two
  scratch buffers, and then, sixteen rows at a time, the rectified sums weighted and summed over the features. The
  reference forms the same projections as host contractions, broadcasts them against each other over all pairs, and
  contracts the feature axis. Read on the extended reals both are the expression above, term for term and with the
  additions in the same order, so the only facts used are re-indexings: a tile's entry is the whole arrays' entry,
  the 32 tiles fill the result, a contraction is a sum over its one contracted axis, and `weights · A_wᵀ` written as
  a contraction of the two second axes is the contraction against the transposed array. No distributivity or
  cancellation is needed, hence no finiteness: the precondition is never opened.

  The three frames are the generated ones (the reference's is its generated run with the result dropped); the
  idealization rewrote no operation, so `preserves` is `True`.
-/
import proofs.«163208_j1503238554110_2_alg».proof.Defs
import proofs.«163208_j1503238554110_2_alg».proof.Proof.Gen.Kernel
import proofs.«163208_j1503238554110_2_alg».proof.Proof.Gen.Kernel.Skeleton
import proofs.«163208_j1503238554110_2_alg».proof.Proof.Gen.Kernel.Launch
import proofs.«163208_j1503238554110_2_alg».proof.Proof.Gen.Kernel.Points
import proofs.«163208_j1503238554110_2_alg».proof.Proof.Gen.Kernel.Frame
import proofs.«163208_j1503238554110_2_alg».proof.Proof.Gen.KernelIdeal
import proofs.«163208_j1503238554110_2_alg».proof.Proof.Gen.KernelIdeal.Skeleton
import proofs.«163208_j1503238554110_2_alg».proof.Proof.Gen.KernelIdeal.Launch
import proofs.«163208_j1503238554110_2_alg».proof.Proof.Gen.KernelIdeal.Points
import proofs.«163208_j1503238554110_2_alg».proof.Proof.Gen.KernelIdeal.Frame
import proofs.«163208_j1503238554110_2_alg».proof.Proof.Gen.ReferenceIdeal
import proofs.«163208_j1503238554110_2_alg».proof.Proof.Gen.Pre_finite_inputs
import proofs.«163208_j1503238554110_2_alg».proof.Proof.Gen.KernelIdeal.Value
import proofs.«163208_j1503238554110_2_alg».proof.Proof.Gen.ReferenceIdeal.Run
import proofs.«163208_j1503238554110_2_alg».proof.Proof.Gen.ReferenceIdeal.Read
import proofs.«163208_j1503238554110_2_alg».proof.Proof.PairArray
import proofs.«163208_j1503238554110_2_alg».proof.Proof.PairHost
import proofs.«163208_j1503238554110_2_alg».proof.Proof.PairRef
import Idealize.ShloMosaic.Adequacy
import Idealize.ShloMosaic.Init

noncomputable section

namespace Cert.Proof

open Idealize.ShloMosaic Idealize.ShloMosaic.ValueIdx Idealize.ShloMosaic.TcCoe Idealize.SL.Sem

/-- The result array of the kernel's run, as the score of the ARGUMENT arrays: the staged arrays are the
    reference's own intermediate arrays of the arguments. -/
theorem kernel_value (m : (ℓ : Loc Cert.KernelIdeal.nD Cert.KernelIdeal.τ Cert.KernelIdeal.sig) → Buf (Elt Ideal) ℓ)
    (c : Dev Cert.KernelIdeal.nD) :
    Cert.PairKernel.G m c
      = Cert.PairSpec.score
          (Cert.ReferenceIdeal.Read.val_main_v8 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg2))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (m ((c : Thread Cert.KernelIdeal.nD Cert.KernelIdeal.τ).loc Cert.KernelIdeal.main_arg1))
          (Cert.ReferenceIdeal.Read.val_main_v9 (F := Ideal)
            (m ((c : Thread Cert.KernelIdeal.nD Cert.KernelIdeal.τ).loc Cert.KernelIdeal.main_arg5)))
          (Cert.ReferenceIdeal.Read.val_main_v10 (F := Ideal)
            (m ((c : Thread Cert.KernelIdeal.nD Cert.KernelIdeal.τ).loc Cert.KernelIdeal.main_arg5)))
          (fun e => m ((c : Thread Cert.KernelIdeal.nD Cert.KernelIdeal.τ).loc Cert.KernelIdeal.main_arg6) (ix1 e))
          (fun e => m ((c : Thread Cert.KernelIdeal.nD Cert.KernelIdeal.τ).loc Cert.KernelIdeal.main_arg7) (ix2 (0 : Fin 1) e))
          (m ((c : Thread Cert.KernelIdeal.nD Cert.KernelIdeal.τ).loc Cert.KernelIdeal.main_arg8) (ix1 (0 : Fin 1))) := by
  unfold Cert.PairKernel.G
  rw [Cert.PairHost.V_Xc, Cert.PairHost.V_Wx, Cert.PairHost.V_Wy, Cert.KernelIdeal.Gen.V_main_arg1,
    Cert.KernelIdeal.Gen.V_main_arg7]
  exact congr (congr (congrArg (Cert.PairSpec.score _ _ _ _) (funext fun e => Cert.PairHost.V_linb m c e)) rfl)
    (Cert.PairHost.V_outb m c)

theorem frame_k : Cert.frame_Kernel := fun m ρ _ => Cert.Kernel.Gen.frame m ρ

theorem frame_ki : Cert.frame_KernelIdeal := fun m ρ _ => Cert.KernelIdeal.Gen.frame m ρ

/-- The reference has no region: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the score of the argument arrays in the result: the kernel's by its tiles, the reference's
    read one operation at a time. -/
theorem algebraic : Cert.algebraic_KernelIdeal_ReferenceIdeal := by
  intro m ρ m' ρ' _ hagree
  refine ⟨fun c => Cert.PairKernel.G m c, ?_, ?_⟩
  · exact (θ_run Cert.KernelIdeal.defs _ _).mono
      (fun r h c => ⟨(h c).1.trans (Cert.PairKernel.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    show _ = Cert.PairKernel.G m c
    rw [Cert.ReferenceIdeal.Read.val_main_v26_eq, Cert.PairRef.ref_eq, kernel_value m c, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
